-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S2048x2048 .f32) (main_arg6 : FVec F S2048x2048 .f32) (main_arg7 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S2048x2048 .f32) (main_arg1 : FVec F S2048x2048 .f32) (main_arg2 : FVec F S2048x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : IVec S2048x2048 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S2048x2048 : Shape := ⟨2, ![2048, 2048]⟩
abbrev S128x2048 : Shape := ⟨2, ![128, 2048]⟩

abbrev nBuf : Space → Nat
  | .hbm => 10
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .i32⟩
  | .hbm, ⟨9, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .i32⟩
  | .local _ .vmem, ⟨17, _⟩ => ⟨S128x2048, .i32⟩
  | .local _ .vmem, ⟨18, _⟩ => ⟨S128x2048, .f32⟩
  | .local _ .vmem, ⟨19, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S128x2048_S128x2048_0_0 : ∀ a, (![0, 0] : Fin 2 → Nat) a + S128x2048.size a ≤ S128x2048.size a
  h_S128x2048 : 0 < S128x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S2048x2048.size a
  hwx0_0 : ∀ i : grid0.Coords, EltTy.bits .f32 = 32 ∨ (Rect.block (s := S2048x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S2048x2048.size a
  hwx0_1 : ∀ i : grid0.Coords, EltTy.bits .f32 = 32 ∨ (Rect.block (s := S2048x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S2048x2048.size a
  hwx0_2 : ∀ i : grid0.Coords, EltTy.bits .f32 = 32 ∨ (Rect.block (s := S2048x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .f32 = 32 ∨ (Rect.block (s := S2048x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S2048x2048.size a
  hwx0_4 : ∀ i : grid0.Coords, EltTy.bits .f32 = 32 ∨ (Rect.block (s := S2048x2048) S128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .f32 = 32 ∨ (Rect.block (s := S2048x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S2048x2048.size a
  hwx0_6 : ∀ i : grid0.Coords, EltTy.bits .f32 = 32 ∨ (Rect.block (s := S2048x2048) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .f32 = 32 ∨ (Rect.block (s := S2048x2048) S128x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S2048x2048.size a
  hwx0_8 : ∀ i : grid0.Coords, EltTy.bits .i32 = 32 ∨ (Rect.block (s := S2048x2048) S128x2048.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .f32 = 32 ∨ (Rect.block (s := S2048x2048) S128x2048.size (cc0_transform_9 i) (hinb0_9 i)).WholeWords (EltTy.packing .f32)

variable [Facts₀]

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S128x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .i32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2048x2048, .f32⟩
  | .hbm, ⟨66, _⟩ => ⟨S2048x2048, .f32⟩
  | .hbm, ⟨67, _⟩ => ⟨S_, .f32⟩
  | .hbm, ⟨68, _⟩ => ⟨S2048x2048, .f32⟩
  | .hbm, ⟨69, _⟩ => ⟨S2048x2048, .f32⟩
  | .hbm, ⟨70, _⟩ => ⟨S_, .f32⟩
  | .hbm, ⟨71, _⟩ => ⟨S2048x2048, .f32⟩
  | .hbm, ⟨72, _⟩ => ⟨S2048x2048, .f32⟩
  | .hbm, ⟨73, _⟩ => ⟨S_, .i32⟩
  | .hbm, ⟨74, _⟩ => ⟨S2048x2048, .i32⟩
  | .hbm, ⟨75, _⟩ => ⟨S2048x2048, .i1⟩
  | .hbm, ⟨76, _⟩ => ⟨S2048x2048, .f32⟩
  | .hbm, ⟨77, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_cst_8 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_v43 : Ref sig .tc := ⟨.hbm, 72, rfl⟩
abbrev main_c : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)

variable [Facts₀]

class Facts : Prop extends Facts₀ where

variable [Facts]
-- ==== Proof.Receptor.lean ====
/-
  One photoreceptor, as a function on the extended reals.

  A receptor sees nine numbers — the image intensity, a noise sample, its adaptation state, its temporal filter
  state, its gain, its time constant `τ`, the peak wavelength and the bandwidth of its pigment, and an integer that
  says whether it is a rod — and answers with one number:

    light    L = max (image + noise · 0.01, 0) · exp (−(530 − peak)² / (2 · bw · bw))
    adapted  A = min (10, max (0.1, adapt + 0.1 · (1 / (1 + L) − adapt) · 1))
    filtered Φ = exp (−1 / τ) · filt + (1 − exp (−1 / τ)) · L
    cone     R = tanh (gain · log (1 + Φ · A))
    response   = R · (10 / (1 + image + 1e-8))   for a rod (the integer is positive),   R   otherwise.

  The float literals are kept as the extended reals their binary words denote (`0.01` is the dyadic rational that
  the f32 word `0x3C23D70A` names, not 1/100); only the zero word is evaluated. Every operation is the textbook
  one on `[-∞, +∞]` with the conventions of the ideal instance at its corners, so the function is total and nothing
  below asks its arguments to be finite. The order of the operands of every sum and product is the order in which
  both programs compute them: no law of arithmetic beyond `0 − x = −x` separates the two programs from this text.
-/
import Idealize.ShloMosaic.PureOps.Ideal
import Idealize.ShloMosaic.PureOps.Ideal.Laws

noncomputable section

namespace Cert.Receptor

open Idealize.ShloMosaic

/-- The extended real an f32 word denotes. -/
abbrev f32 (b : BitVec 32) : EReal := Ideal.ofBits .f32 b

/-- The light a receptor absorbs: the noisy intensity clamped at zero, weighted by a Gaussian spectral
    sensitivity around the pigment's peak, `exp (−(530 − peak)² / (2 · bw · bw))`. -/
def light (image noise peak bw : EReal) : EReal :=
  max (image + noise * f32 0x3C23D70A#32) 0
    * Ideal.exp (Ideal.div (-((f32 0x44048000#32 - peak) * (f32 0x44048000#32 - peak)))
        (f32 0x40000000#32 * bw * bw))

/-- The adaptation state after one step of rate `0.1` towards the target `1 / (1 + L)`, kept inside `[0.1, 10]`. -/
def adapted (L adapt : EReal) : EReal :=
  min (f32 0x41200000#32) (max (f32 0x3DCCCCCD#32)
    (adapt + f32 0x3DCCCCCD#32 * (Ideal.div (f32 0x3F800000#32) (f32 0x3F800000#32 + L) - adapt) * f32 0x3F800000#32))

/-- The temporal low-pass filter after one step: the convex combination of its state and the light with
    weight `α = exp (−1 / τ)` on the state. -/
def filtered (L filt tau : EReal) : EReal :=
  Ideal.exp (Ideal.div (f32 0xBF800000#32) tau) * filt
    + (f32 0x3F800000#32 - Ideal.exp (Ideal.div (f32 0xBF800000#32) tau)) * L

/-- The cone response: `tanh (gain · log (1 + Φ · A))`. -/
def cone (L adapt filt gain tau : EReal) : EReal :=
  Ideal.tanh (gain * Ideal.log1p (filtered L filt tau * adapted L adapt))

/-- The scotopic gain of a rod, `10 / (1 + image + 1e-8)`, from the intensity before noise. -/
def rodGain (image : EReal) : EReal :=
  Ideal.div (f32 0x41200000#32) (f32 0x3F800000#32 + image + f32 0x322BCC77#32)

/-- The receptor's response: the cone response, multiplied by the scotopic gain when the receptor is a rod
    (its mask entry is positive as a signed integer). -/
def response (image noise adapt filt gain tau peak bw : EReal) (rod : BitVec 32) : EReal :=
  Scalar.select (IntOp.cmpi .sgt rod 0#32)
    (cone (light image noise peak bw) adapt filt gain tau * rodGain image)
    (cone (light image noise peak bw) adapt filt gain tau)

/-- The whole mosaic: every receptor answers for itself, from the entries of the nine arrays at its own index. -/
def field {ι : Type} (image noise adapt filt gain tau peak bw : ι → EReal) (rod : ι → BitVec 32) : ι → EReal :=
  fun i => response (image i) (noise i) (adapt i) (filt i) (gain i) (tau i) (peak i) (bw i) (rod i)

end Cert.Receptor

end
-- ==== Proof.KernelPoint.lean ====
/-
  The kernel's body at one element.

  The body loads the nine blocks whole, computes with pointwise vector operations and splatted constants, and
  stores one value. Read at an index `j` of the block, every vector operation is its scalar namesake on the
  operands' entries at `j` and a splat is its constant, so the stored value at `j` is the receptor's response to
  the nine loaded entries at `j`. The kernel negates the squared detuning as `0 − d·d`; on the extended reals that is
  `−(d·d)` for every `d·d`, infinite ones included.
-/
import proofs.«136726_j17274358464636_1_alg».proof.Proof.Gen.KernelIdeal.Skeleton
import proofs.«136726_j17274358464636_1_alg».proof.Proof.Receptor

noncomputable section

namespace Cert.KernelIdeal.Point

open Idealize.ShloMosaic Cert.KernelIdeal Cert.KernelIdeal.Gen

/-- The stored value at an index of the block is the response of the receptor there: to the entries of the nine
    loaded blocks at that index. -/
theorem payload_apply (x0 x1 x2 x3 x4 x5 x6 x7 : Vec Ideal S128x2048 .f32) (x8 : Vec Ideal S128x2048 .i32)
    (j : S128x2048.Idx) :
    k0_pay1 (F := Ideal) x0 x2 x3 x4 x5 x8 (k0_pay2 x0 x1 x6 x7) (k0_pay3 x0 x1 x2 x6 x7)
        (Scalar.ofBits .f32 0x3F800000#32) j
      = Cert.Receptor.response (x0 j) (x1 j) (x2 j) (x3 j) (x4 j) (x5 j) (x6 j) (x7 j) (x8 j) := by
  simp only [k0_pay1, k0_pay2, k0_pay3, Cert.Receptor.response, Cert.Receptor.cone, Cert.Receptor.rodGain,
    Cert.Receptor.filtered, Cert.Receptor.adapted, Cert.Receptor.light, Cert.Receptor.f32,
    mulf, addf, subf, divf, maximumf, minimumf, exp, log1p, tanh, select, cmpi, broadcast,
    Ideal.ofBits_def, Ideal.addf_def, Ideal.subf_def, Ideal.mulf_def, Ideal.divf_def, Ideal.maximumf_def,
    Ideal.minimumf_def, Ideal.exp_def, Ideal.log1p_def, Ideal.tanh_def, Ideal.ofBits_zero_f32, zero_sub]

end Cert.KernelIdeal.Point

end
-- ==== Proof.KernelMosaic.lean ====
/-
  From blocks to the array: what the kernel's result array holds after the run.

  The grid has sixteen points; at point `t` every one of the ten windows — the nine arguments' and the result's —
  stands on the same block of its array: rows `128·t … 128·t + 127`, all 2048 columns. So the entry of an input
  block at a block coordinate `j` is the entry of its argument array at row `128·t + j₀`, column `j₁`, the index at
  which the result's block puts its own entry `j`: what point `t` writes back is block `t` of the mosaic's response
  field of the nine argument arrays. The sixteen blocks cover the array (row `r` lies in block `r / 128`), so after
  the run the result array is that field, everywhere.
-/
import proofs.«136726_j17274358464636_1_alg».proof.Proof.Gen.KernelIdeal.Value
import proofs.«136726_j17274358464636_1_alg».proof.Proof.KernelPoint

noncomputable section

namespace Cert.KernelIdeal.Mosaic

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body's one rectangle starts at the block's origin. -/
theorem origin : (![0, 0] : Fin 2 → Nat) = fun _ => 0 := funext fun a => by fin_cases a <;> rfl

/-- The response field over arrays of the mosaic's shape. -/
abbrev G (a0 a1 a2 a3 a4 a5 a6 a7 : S2048x2048.Idx → Elt Ideal .f32) (a8 : S2048x2048.Idx → Elt Ideal .i32) :
    S2048x2048.Idx → Elt Ideal .f32 :=
  Cert.Receptor.field a0 a1 a2 a3 a4 a5 a6 a7 a8

/-- At every grid point each argument's window stands on the block index of the result's window, on both axes;
    the result's block index is a row-block number below sixteen and column-block zero (decided over the grid). -/
theorem same_block : ∀ t : Fin cfg0.N,
    win0_0.index t (0 : Fin 2) = win0_9.index t (0 : Fin 2) ∧ win0_0.index t (1 : Fin 2) = win0_9.index t (1 : Fin 2)
    ∧ win0_1.index t (0 : Fin 2) = win0_9.index t (0 : Fin 2) ∧ win0_1.index t (1 : Fin 2) = win0_9.index t (1 : Fin 2)
    ∧ win0_2.index t (0 : Fin 2) = win0_9.index t (0 : Fin 2) ∧ win0_2.index t (1 : Fin 2) = win0_9.index t (1 : Fin 2)
    ∧ win0_3.index t (0 : Fin 2) = win0_9.index t (0 : Fin 2) ∧ win0_3.index t (1 : Fin 2) = win0_9.index t (1 : Fin 2)
    ∧ win0_4.index t (0 : Fin 2) = win0_9.index t (0 : Fin 2) ∧ win0_4.index t (1 : Fin 2) = win0_9.index t (1 : Fin 2)
    ∧ win0_5.index t (0 : Fin 2) = win0_9.index t (0 : Fin 2) ∧ win0_5.index t (1 : Fin 2) = win0_9.index t (1 : Fin 2)
    ∧ win0_6.index t (0 : Fin 2) = win0_9.index t (0 : Fin 2) ∧ win0_6.index t (1 : Fin 2) = win0_9.index t (1 : Fin 2)
    ∧ win0_7.index t (0 : Fin 2) = win0_9.index t (0 : Fin 2) ∧ win0_7.index t (1 : Fin 2) = win0_9.index t (1 : Fin 2)
    ∧ win0_8.index t (0 : Fin 2) = win0_9.index t (0 : Fin 2) ∧ win0_8.index t (1 : Fin 2) = win0_9.index t (1 : Fin 2)
    ∧ win0_9.index t (0 : Fin 2) ≤ 15 ∧ win0_9.index t (1 : Fin 2) = 0 :=
  (by decide +kernel : ∀ t : Fin grid0.N, _)

/-- Every one of the sixteen row blocks is some grid point's. -/
theorem every_block : ∀ q : Fin 16, ∃ t : Fin cfg0.N, win0_9.index t = ![q.val, 0] :=
  (by decide +kernel : ∀ q : Fin 16, ∃ t : Fin grid0.N, win0_9.index t = ![q.val, 0])

/-- What point `t` writes back is block `t` of the response field of the argument arrays as the region finds
    them: each input block's entry at `j` is its array's entry where the result's block puts `j`. -/
theorem flushed_eq (c : Dev nD) (t : Fin cfg0.N) :
    (dats m 0 c).flushed 9 t
      = ((cfg0.win 9).blk t).view.read (Elt Ideal) (G (V m c main_arg0) (V m c main_arg1) (V m c main_arg2) (V m c main_arg3) (V m c main_arg4) (V m c main_arg5) (V m c main_arg6) (V m c main_arg7) (V m c main_arg8)) := by
  show (cfg0.win 9).cut (grid0.coords t) ((dats m 0 c).after 9 t) = _
  rw [after0_9]
  unfold out0_9
  rw [View.canon_unit_zero origin]
  simp only [View.ld_unit_zero (S := S128x2048) origin]
  obtain ⟨r0, l0, r1, l1, r2, l2, r3, l3, r4, l4, r5, l5, r6, l6, r7, l7, r8, l8, -, -⟩ := same_block t
  funext j
  refine (Cert.KernelIdeal.Point.payload_apply (iblk m c 0 t) (iblk m c 1 t) (iblk m c 2 t) (iblk m c 3 t) (iblk m c 4 t) (iblk m c 5 t) (iblk m c 6 t) (iblk m c 7 t) (iblk m c 8 t) j).trans ?_
  show Cert.Receptor.response
      (V m c main_arg0 (((cfg0.win 0).blk t).view.emb j))
      (V m c main_arg1 (((cfg0.win 1).blk t).view.emb j))
      (V m c main_arg2 (((cfg0.win 2).blk t).view.emb j))
      (V m c main_arg3 (((cfg0.win 3).blk t).view.emb j))
      (V m c main_arg4 (((cfg0.win 4).blk t).view.emb j))
      (V m c main_arg5 (((cfg0.win 5).blk t).view.emb j))
      (V m c main_arg6 (((cfg0.win 6).blk t).view.emb j))
      (V m c main_arg7 (((cfg0.win 7).blk t).view.emb j))
      (V m c main_arg8 (((cfg0.win 8).blk t).view.emb j))
    = Cert.Receptor.response
      (V m c main_arg0 (((cfg0.win 9).blk t).view.emb j))
      (V m c main_arg1 (((cfg0.win 9).blk t).view.emb j))
      (V m c main_arg2 (((cfg0.win 9).blk t).view.emb j))
      (V m c main_arg3 (((cfg0.win 9).blk t).view.emb j))
      (V m c main_arg4 (((cfg0.win 9).blk t).view.emb j))
      (V m c main_arg5 (((cfg0.win 9).blk t).view.emb j))
      (V m c main_arg6 (((cfg0.win 9).blk t).view.emb j))
      (V m c main_arg7 (((cfg0.win 9).blk t).view.emb j))
      (V m c main_arg8 (((cfg0.win 9).blk t).view.emb j))
  have h0 : ((cfg0.win 0).blk t).view.emb j = ((cfg0.win 9).blk t).view.emb j := by
    funext a; apply Fin.ext
    match a with
    | ⟨0, _⟩ => show win0_0.index t (0 : Fin 2) * 128 + 1 * (j 0).val = win0_9.index t (0 : Fin 2) * 128 + 1 * (j 0).val; omega
    | ⟨1, _⟩ => show win0_0.index t (1 : Fin 2) * 2048 + 1 * (j 1).val = win0_9.index t (1 : Fin 2) * 2048 + 1 * (j 1).val; omega
  have h1 : ((cfg0.win 1).blk t).view.emb j = ((cfg0.win 9).blk t).view.emb j := by
    funext a; apply Fin.ext
    match a with
    | ⟨0, _⟩ => show win0_1.index t (0 : Fin 2) * 128 + 1 * (j 0).val = win0_9.index t (0 : Fin 2) * 128 + 1 * (j 0).val; omega
    | ⟨1, _⟩ => show win0_1.index t (1 : Fin 2) * 2048 + 1 * (j 1).val = win0_9.index t (1 : Fin 2) * 2048 + 1 * (j 1).val; omega
  have h2 : ((cfg0.win 2).blk t).view.emb j = ((cfg0.win 9).blk t).view.emb j := by
    funext a; apply Fin.ext
    match a with
    | ⟨0, _⟩ => show win0_2.index t (0 : Fin 2) * 128 + 1 * (j 0).val = win0_9.index t (0 : Fin 2) * 128 + 1 * (j 0).val; omega
    | ⟨1, _⟩ => show win0_2.index t (1 : Fin 2) * 2048 + 1 * (j 1).val = win0_9.index t (1 : Fin 2) * 2048 + 1 * (j 1).val; omega
  have h3 : ((cfg0.win 3).blk t).view.emb j = ((cfg0.win 9).blk t).view.emb j := by
    funext a; apply Fin.ext
    match a with
    | ⟨0, _⟩ => show win0_3.index t (0 : Fin 2) * 128 + 1 * (j 0).val = win0_9.index t (0 : Fin 2) * 128 + 1 * (j 0).val; omega
    | ⟨1, _⟩ => show win0_3.index t (1 : Fin 2) * 2048 + 1 * (j 1).val = win0_9.index t (1 : Fin 2) * 2048 + 1 * (j 1).val; omega
  have h4 : ((cfg0.win 4).blk t).view.emb j = ((cfg0.win 9).blk t).view.emb j := by
    funext a; apply Fin.ext
    match a with
    | ⟨0, _⟩ => show win0_4.index t (0 : Fin 2) * 128 + 1 * (j 0).val = win0_9.index t (0 : Fin 2) * 128 + 1 * (j 0).val; omega
    | ⟨1, _⟩ => show win0_4.index t (1 : Fin 2) * 2048 + 1 * (j 1).val = win0_9.index t (1 : Fin 2) * 2048 + 1 * (j 1).val; omega
  have h5 : ((cfg0.win 5).blk t).view.emb j = ((cfg0.win 9).blk t).view.emb j := by
    funext a; apply Fin.ext
    match a with
    | ⟨0, _⟩ => show win0_5.index t (0 : Fin 2) * 128 + 1 * (j 0).val = win0_9.index t (0 : Fin 2) * 128 + 1 * (j 0).val; omega
    | ⟨1, _⟩ => show win0_5.index t (1 : Fin 2) * 2048 + 1 * (j 1).val = win0_9.index t (1 : Fin 2) * 2048 + 1 * (j 1).val; omega
  have h6 : ((cfg0.win 6).blk t).view.emb j = ((cfg0.win 9).blk t).view.emb j := by
    funext a; apply Fin.ext
    match a with
    | ⟨0, _⟩ => show win0_6.index t (0 : Fin 2) * 128 + 1 * (j 0).val = win0_9.index t (0 : Fin 2) * 128 + 1 * (j 0).val; omega
    | ⟨1, _⟩ => show win0_6.index t (1 : Fin 2) * 2048 + 1 * (j 1).val = win0_9.index t (1 : Fin 2) * 2048 + 1 * (j 1).val; omega
  have h7 : ((cfg0.win 7).blk t).view.emb j = ((cfg0.win 9).blk t).view.emb j := by
    funext a; apply Fin.ext
    match a with
    | ⟨0, _⟩ => show win0_7.index t (0 : Fin 2) * 128 + 1 * (j 0).val = win0_9.index t (0 : Fin 2) * 128 + 1 * (j 0).val; omega
    | ⟨1, _⟩ => show win0_7.index t (1 : Fin 2) * 2048 + 1 * (j 1).val = win0_9.index t (1 : Fin 2) * 2048 + 1 * (j 1).val; omega
  have h8 : ((cfg0.win 8).blk t).view.emb j = ((cfg0.win 9).blk t).view.emb j := by
    funext a; apply Fin.ext
    match a with
    | ⟨0, _⟩ => show win0_8.index t (0 : Fin 2) * 128 + 1 * (j 0).val = win0_9.index t (0 : Fin 2) * 128 + 1 * (j 0).val; omega
    | ⟨1, _⟩ => show win0_8.index t (1 : Fin 2) * 2048 + 1 * (j 1).val = win0_9.index t (1 : Fin 2) * 2048 + 1 * (j 1).val; omega
  rw [h0, h1, h2, h3, h4, h5, h6, h7, h8]

/-- An index of the array lies in point `t`'s block iff on each axis its coordinate lies in the block's range. -/
theorem mem_blk (t : Fin cfg0.N) (i : S2048x2048.Idx) :
    i ∈ ((cfg0.win 9).blk t).view.set ↔ ∀ a : Fin 2, win0_9.index t a * S128x2048.size a ≤ (i a).val
      ∧ (i a).val < win0_9.index t a * S128x2048.size a + S128x2048.size a := by
  show i ∈ ((View.whole main_v0).slice (win0_9.rect t)).set ↔ _
  rw [View.set_slice_whole, Rect.mem_set_unit]
  exact Iff.rfl

/-- Every index of the array is in some point's block: row `r` in the block of the point on row block `r / 128`. -/
theorem cover (i : S2048x2048.Idx) :
    ∃ t : Fin cfg0.N, (cfg0.win 9).flush t = true ∧ i ∈ ((cfg0.win 9).blk t).view.set := by
  have hi0 : (i 0).val < 2048 := (i 0).isLt
  have hi1 : (i 1).val < 2048 := (i 1).isLt
  obtain ⟨t, ht⟩ := every_block ⟨(i 0).val / 128, by omega⟩
  have q0 : win0_9.index t (0 : Fin 2) = (i 0).val / 128 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 2048 ≤ (i 1).val ∧ (i 1).val < win0_9.index t (1 : Fin 2) * 2048 + 2048; omega

/-- The result array after the run is the response field of the argument arrays. -/
theorem final (c : Dev nD) :
    (dats m 0 c).arrAt 9 cfg0.N = G (V m c main_arg0) (V m c main_arg1) (V m c main_arg2) (V m c main_arg3) (V m c main_arg4) (V m c main_arg5) (V m c main_arg6) (V m c main_arg7) (V m c main_arg8) :=
  (dats m 0 c).arrAt_eq_of_cover 9 (G (V m c main_arg0) (V m c main_arg1) (V m c main_arg2) (V m c main_arg3) (V m c main_arg4) (V m c main_arg5) (V m c main_arg6) (V m c main_arg7) (V m c main_arg8))
    (fun t _ => flushed_eq m c t) cover

/-- The kernel's run, read: every weakly fair execution ends with the result array at the response field of the
    argument arrays as launched, and the arguments unchanged. -/
theorem run : θ_run defs (onTc (τ := τ) (main (F := Ideal))) ⟨m, fun _ => 0, ρ⟩ fun r => ∀ c : Dev nD,
      r.2.mem ((c : Thread nD τ).loc main_v0) = G
        (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Mosaic

end
-- ==== Proof.ReferencePoint.lean ====
/-
  The reference at one element.

  The reference is a straight line of host operations on whole arrays: elementwise arithmetic, splats of scalar
  constants, a clamp (the outlined `clip`: `min (hi, max (lo, x))`) and a select (the outlined `where`). Read at
  an index `i`, each operation is its scalar namesake on its operands' entries at `i`, and a splat is its constant;
  so the result at `i` is the receptor's response to the nine arguments' entries at `i`. On the extended reals the
  host's quotient, exponential, `log (1 + ·)` and hyperbolic tangent are the same functions as the kernel's, and the
  host's negation is `−x`.
-/
import proofs.«136726_j17274358464636_1_alg».proof.Proof.Gen.ReferenceIdeal.Read
import proofs.«136726_j17274358464636_1_alg».proof.Proof.Receptor

noncomputable section

namespace Cert.ReferenceIdeal.Point

open Idealize.ShloMosaic Cert.ReferenceIdeal Cert.ReferenceIdeal.Read

/-- The reference's result array is the mosaic's response field of its nine argument arrays. -/
theorem result_eq (x0 x1 x2 x3 x4 x5 x6 x7 : (⟨S2048x2048, .f32⟩ : BufTy).Contents (Elt Ideal))
    (x8 : (⟨S2048x2048, .i32⟩ : BufTy).Contents (Elt Ideal)) :
    val_main_v47 (F := Ideal) x0 x1 x2 x3 x4 x5 x6 x7 x8 = Cert.Receptor.field x0 x1 x2 x3 x4 x5 x6 x7 x8 := by
  funext i
  simp only [
    val_main_v47_apply, val_main_v46_apply, val_main_v45_apply, val_main_v44_apply, val_main_c_apply, val_main_v43_apply,
    val_main_v42_apply, val_main_cst_13_apply, val_main_v41_apply, val_main_v40_apply, val_main_cst_12_apply, val_main_v39_apply,
    val_main_v38_apply, val_main_cst_11_apply, val_main_v37_apply, val_main_v36_apply, val_main_v35_apply, val_main_v34_apply,
    val_main_v33_apply, val_main_v32_apply, val_main_v31_apply, val_main_v30_apply, val_main_cst_10_apply, val_main_v29_apply,
    val_main_v28_apply, val_main_v27_apply, val_main_v26_apply, val_main_cst_9_apply, val_main_v25_apply, val_main_call0_v4_apply,
    val_main_call0_v3_apply, val_main_call0_v2_apply, val_main_call0_v1_apply, val_main_call0_v0_apply, val_main_cst_8_apply, val_main_cst_7_apply,
    val_main_v24_apply, val_main_v23_apply, val_main_v22_apply, val_main_cst_6_apply, val_main_v21_apply, val_main_v20_apply,
    val_main_cst_5_apply, val_main_v19_apply, val_main_v18_apply, val_main_v17_apply, val_main_cst_4_apply, val_main_v16_apply,
    val_main_v15_apply, val_main_cst_3_apply, val_main_v14_apply, val_main_v13_apply, val_main_v12_apply, val_main_v11_apply,
    val_main_v10_apply, val_main_v9_apply, val_main_cst_2_apply, val_main_v8_apply, val_main_v7_apply, val_main_v6_apply,
    val_main_v5_apply, val_main_cst_1_apply, val_main_v4_apply, val_main_v3_apply, val_main_cst_0_apply, val_main_v2_apply,
    val_main_v1_apply, val_main_v0_apply, val_main_cst_apply,
    Cert.Receptor.field, Cert.Receptor.response, Cert.Receptor.cone, Cert.Receptor.rodGain,
    Cert.Receptor.filtered, Cert.Receptor.adapted, Cert.Receptor.light, Cert.Receptor.f32,
    Ideal.ofBits_def, Ideal.addf_def, Ideal.subf_def, Ideal.mulf_def, Ideal.maximumf_def, Ideal.minimumf_def,
    Ideal.hostDivf_def, Ideal.hostNegf_def, Ideal.negf_def, Ideal.hostUnary_exp_def, Ideal.hostUnary_log1p_def,
    Ideal.hostUnary_tanh_def, Ideal.ofBits_zero_f32]

end Cert.ReferenceIdeal.Point

end
-- ==== Proof.lean ====
/-
  A mosaic of 2048 × 2048 photoreceptors: the tiled kernel and the whole-array reference compute one function.

  Each receptor's response depends only on the entries of the nine argument arrays at its own index (Receptor.lean
  writes it out: light through a Gaussian spectral sensitivity, one step of adaptation, one step of a temporal
  low-pass filter, `tanh (gain · log (1 + ·))`, and a scotopic gain for rods). The kernel visits the mosaic in
  sixteen blocks of 128 full rows; at every point all ten windows stand on the same block, so the block it writes
  back is that block of the response field, and the blocks cover the array (KernelPoint.lean, KernelMosaic.lean).
  The reference applies the same operations, in the same order and with the same constants, to the whole arrays
  (ReferencePoint.lean). The one place where the two texts differ is the sign of the squared detuning, `0 − d·d` in
  the kernel and `−(d·d)` in the reference, equal for every extended real; no other law of arithmetic is used, so the
  equality holds on all of `[-∞, +∞]` and the precondition's finiteness is never opened.

  The kernel's idealization rewrote nothing, so that conjunct is trivial; the two kernels' frames are their
  generated frame certificates, and the reference's frame is its run with the result forgotten.
-/
import proofs.«136726_j17274358464636_1_alg».proof.Defs
import proofs.«136726_j17274358464636_1_alg».proof.Proof.Gen.Kernel
import proofs.«136726_j17274358464636_1_alg».proof.Proof.Gen.Kernel.Skeleton
import proofs.«136726_j17274358464636_1_alg».proof.Proof.Gen.Kernel.Launch
import proofs.«136726_j17274358464636_1_alg».proof.Proof.Gen.Kernel.Points
import proofs.«136726_j17274358464636_1_alg».proof.Proof.Gen.Kernel.Frame
import proofs.«136726_j17274358464636_1_alg».proof.Proof.Gen.KernelIdeal
import proofs.«136726_j17274358464636_1_alg».proof.Proof.Gen.KernelIdeal.Skeleton
import proofs.«136726_j17274358464636_1_alg».proof.Proof.Gen.KernelIdeal.Launch
import proofs.«136726_j17274358464636_1_alg».proof.Proof.Gen.KernelIdeal.Points
import proofs.«136726_j17274358464636_1_alg».proof.Proof.Gen.KernelIdeal.Frame
import proofs.«136726_j17274358464636_1_alg».proof.Proof.Gen.ReferenceIdeal
import proofs.«136726_j17274358464636_1_alg».proof.Proof.Gen.Pre_finite_inputs
import proofs.«136726_j17274358464636_1_alg».proof.Proof.Gen.KernelIdeal.Value
import proofs.«136726_j17274358464636_1_alg».proof.Proof.Gen.ReferenceIdeal.Run
import proofs.«136726_j17274358464636_1_alg».proof.Proof.Gen.ReferenceIdeal.Read
import proofs.«136726_j17274358464636_1_alg».proof.Proof.KernelMosaic
import proofs.«136726_j17274358464636_1_alg».proof.Proof.ReferencePoint
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run ends with its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the nine arguments, the kernel's result array ends at the response field of its
    arguments and the reference's at the response field of its own: one array. -/
theorem algebraic : Cert.algebraic_KernelIdeal_ReferenceIdeal := by
  intro m ρ m' ρ' _ hagree
  refine ⟨_, Cert.KernelIdeal.Mosaic.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.Point.result_eq,
    (hagree c).1,
    (hagree c).2.1,
    (hagree c).2.2.1,
    (hagree c).2.2.2.1,
    (hagree c).2.2.2.2.1,
    (hagree c).2.2.2.2.2.1,
    (hagree c).2.2.2.2.2.2.1,
    (hagree c).2.2.2.2.2.2.2.1,
    (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
